-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x512 : Shape := ⟨3, ![2, 2048, 512]⟩
abbrev S64x512 : Shape := ⟨2, ![64, 512]⟩
abbrev S64 : Shape := ⟨1, ![64]⟩
abbrev S_ : Shape := ⟨0, ![]⟩

class Facts : Prop where
  bcast_S_S2x2048x512 : S_.BroadcastsInDim S2x2048x512 (![] : Fin 0 → Fin S2x2048x512.rank)
  reducesTo_S2x2048x512_S_d0_1_2 : S2x2048x512.ReducesTo [0, 1, 2] S_
  h_S_ : 0 < S_.numel
  bcast_S_S64x512 : S_.BroadcastsInDim S64x512 (![] : Fin 0 → Fin S64x512.rank)
  reducesTo_S64x512_S_d0_1 : S64x512.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  main_v18

def fn {F : FTy → Type} [FloatOps F] (main_arg0 : FVec F S2x2048x512 .f32) (main_arg1 : FVec F S64x512 .f32) (main_arg2 : FVec F S64 .f32) (main_arg3 : FVec F S64 .f32) : IVec S_ 1 :=
  let main_v0 : FVec F S2x2048x512 .f32 := Host.absf main_arg0
  let main_cst : FVec F S_ .f32 := constant S_ .f32 0x7F800000#32
  let main_v1 : FVec F S2x2048x512 .f32 := broadcastInDim S2x2048x512 ![] bcast_S_S2x2048x512 main_cst
  let main_v2 : IVec S2x2048x512 1 := cmpf .olt main_v0 main_v1
  let main_c : IVec S_ 1 := constantI S_ 1 1#1
  let main_v3 : IVec S_ 1 := (fun x v => Host.reduce IntOp.andi x v reducesTo_S2x2048x512_S_d0_1_2 h_S_) main_v2 main_c
  let main_v4 : FVec F S64x512 .f32 := Host.absf main_arg1
  let main_cst_0 : FVec F S_ .f32 := constant S_ .f32 0x7F800000#32
  let main_v5 : FVec F S64x512 .f32 := broadcastInDim S64x512 ![] bcast_S_S64x512 main_cst_0
  let main_v6 : IVec S64x512 1 := cmpf .olt main_v4 main_v5
  let main_c_1 : IVec S_ 1 := constantI S_ 1 1#1
  let main_v7 : IVec S_ 1 := (fun x v => Host.reduce IntOp.andi x v reducesTo_S64x512_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_v13 main_v16
-- ==== Kernel.lean ====
abbrev S2x2048x512 : Shape := ⟨3, ![2, 2048, 512]⟩
abbrev S64x512 : Shape := ⟨2, ![64, 512]⟩
abbrev S64 : Shape := ⟨1, ![64]⟩
abbrev S4096x512 : Shape := ⟨2, ![4096, 512]⟩
abbrev S1x64 : Shape := ⟨2, ![1, 64]⟩
abbrev S4096x64 : Shape := ⟨2, ![4096, 64]⟩
abbrev S1024x512 : Shape := ⟨2, ![1024, 512]⟩
abbrev S1024x64 : Shape := ⟨2, ![1024, 64]⟩
abbrev S1024 : Shape := ⟨1, ![1024]⟩
abbrev S1024x1 : Shape := ⟨2, ![1024, 1]⟩
abbrev S2x2048x64 : Shape := ⟨3, ![2, 2048, 64]⟩

abbrev nBuf : Space → Nat
  | .hbm => 9
  | .vmem => 7
  | .smem => 0
  | _ => 0

abbrev bufTy : (tb : Table) → Fin (tcTables nBuf tb) → BufTy
  | .hbm, ⟨0, _⟩ => ⟨S2x2048x512, .f32⟩
  | .hbm, ⟨1, _⟩ => ⟨S64x512, .f32⟩
  | .hbm, ⟨2, _⟩ => ⟨S64, .f32⟩
  | .hbm, ⟨3, _⟩ => ⟨S64, .f32⟩
  | .hbm, ⟨4, _⟩ => ⟨S4096x512, .f32⟩
  | .hbm, ⟨5, _⟩ => ⟨S1x64, .f32⟩
  | .hbm, ⟨6, _⟩ => ⟨S1x64, .f32⟩
  | .hbm, ⟨7, _⟩ => ⟨S4096x64, .f32⟩
  | .hbm, ⟨8, _⟩ => ⟨S2x2048x64, .f32⟩
  | .local _ .vmem, ⟨0, _⟩ => ⟨S1024x512, .f32⟩
  | .local _ .vmem, ⟨1, _⟩ => ⟨S1024x512, .f32⟩
  | .local _ .vmem, ⟨2, _⟩ => ⟨S64x512, .f32⟩
  | .local _ .vmem, ⟨3, _⟩ => ⟨S1x64, .f32⟩
  | .local _ .vmem, ⟨4, _⟩ => ⟨S1x64, .f32⟩
  | .local _ .vmem, ⟨5, _⟩ => ⟨S1024x64, .f32⟩
  | .local _ .vmem, ⟨6, _⟩ => ⟨S1024x64, .f32⟩
  | _, _ => ⟨S2x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S2x2048x512_S4096x512 : S2x2048x512.ShapeCasts S4096x512
  shapeCasts_S64_S1x64 : S64.ShapeCasts S1x64
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  reduces_S1024x512_S1024 : S1024x512.Reduces [1] S1024
  shapeCasts_S1024_S1024x1 : S1024.ShapeCasts S1024x1
  inb_S64x512_S64x512_0_0 : ∀ a, (![0, 0] : Fin 2 → Nat) a + S64x512.size a ≤ S64x512.size a
  h_S64x512 : 0 < S64x512.numel
  reduces_S64x512_S64 : S64x512.Reduces [1] S64
  bitsLt_bf16_f32 : FTy.bits .bf16 < FTy.bits .f32
  broadcasts_S1024x1_S1024x64 : S1024x1.Broadcasts S1024x64
  broadcasts_S1x64_S1024x64 : S1x64.Broadcasts S1024x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  inb_S1024x64_S1024x64_0_0 : ∀ a, (![0, 0] : Fin 2 → Nat) a + S1024x64.size a ≤ S1024x64.size a
  h_S1024x64 : 0 < S1024x64.numel
  shapeCasts_S4096x64_S2x2048x64 : S4096x64.ShapeCasts S2x2048x64
  dot_S1024x512_S64x512_S1024x64_1_1_0_0_n_n_wf : DotDims.WF S1024x512 S64x512 S1024x64 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S4096x512.size a
  hwx0_0 : ∀ i : grid0.Coords, EltTy.bits .f32 = 32 ∨ (Rect.block (s := S4096x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x512.size a ≤ S64x512.size a
  hwx0_1 : ∀ i : grid0.Coords, EltTy.bits .f32 = 32 ∨ (Rect.block (s := S64x512) S64x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x64.size a ≤ S4096x64.size a
  hwx0_4 : ∀ i : grid0.Coords, EltTy.bits .f32 = 32 ∨ (Rect.block (s := S4096x64) S1024x64.size (cc0_transform_4 i) (hinb0_4 i)).WholeWords (EltTy.packing .f32)

variable [Facts₀]

def dot_S1024x512_S64x512_S1024x64_1_1_0_0_n_n : DotDims S1024x512 S64x512 S1024x64 where
  lhsContracting := [1]
  rhsContracting := [1]
  lhsNonContracting := [0]
  rhsNonContracting := [0]
  lhsBatch := []
  rhsBatch := []
  wf := dot_S1024x512_S64x512_S1024x64_1_1_0_0_n_n_wf

abbrev win0_0 : Pipeline.Window sig grid0 :=
  Pipeline.Window.ofSpec (Memref.whole main_v0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1024x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S2x2048x512 : Shape := ⟨3, ![2, 2048, 512]⟩
abbrev S64x512 : Shape := ⟨2, ![64, 512]⟩
abbrev S64 : Shape := ⟨1, ![64]⟩
abbrev S2x2048x1x512 : Shape := ⟨4, ![2, 2048, 1, 512]⟩
abbrev S1x1x64x512 : Shape := ⟨4, ![1, 1, 64, 512]⟩
abbrev S2x2048x64x512 : Shape := ⟨4, ![2, 2048, 64, 512]⟩
abbrev S_ : Shape := ⟨0, ![]⟩
abbrev S2x2048x64 : Shape := ⟨3, ![2, 2048, 64]⟩
abbrev S1x1x64 : Shape := ⟨3, ![1, 1, 64]⟩

abbrev nBuf : Space → Nat
  | .hbm => 30
  | .vmem => 0
  | .smem => 0
  | _ => 0

abbrev bufTy : (tb : Table) → Fin (tcTables nBuf tb) → BufTy
  | .hbm, ⟨0, _⟩ => ⟨S2x2048x512, .f32⟩
  | .hbm, ⟨1, _⟩ => ⟨S64x512, .f32⟩
  | .hbm, ⟨2, _⟩ => ⟨S64, .f32⟩
  | .hbm, ⟨3, _⟩ => ⟨S64, .f32⟩
  | .hbm, ⟨4, _⟩ => ⟨S2x2048x1x512, .f32⟩
  | .hbm, ⟨5, _⟩ => ⟨S1x1x64x512, .f32⟩
  | .hbm, ⟨6, _⟩ => ⟨S2x2048x64x512, .f32⟩
  | .hbm, ⟨7, _⟩ => ⟨S2x2048x64x512, .f32⟩
  | .hbm, ⟨8, _⟩ => ⟨S2x2048x64x512, .f32⟩
  | .hbm, ⟨9, _⟩ => ⟨S2x2048x64x512, .f32⟩
  | .hbm, ⟨10, _⟩ => ⟨S_, .f32⟩
  | .hbm, ⟨11, _⟩ => ⟨S2x2048x64, .f32⟩
  | .hbm, ⟨12, _⟩ => ⟨S2x2048x64, .f32⟩
  | .hbm, ⟨13, _⟩ => ⟨S64, .f32⟩
  | .hbm, ⟨14, _⟩ => ⟨S_, .f32⟩
  | .hbm, ⟨15, _⟩ => ⟨S_, .f32⟩
  | .hbm, ⟨16, _⟩ => ⟨S64, .f32⟩
  | .hbm, ⟨17, _⟩ => ⟨S64, .f32⟩
  | .hbm, ⟨18, _⟩ => ⟨S1x1x64, .f32⟩
  | .hbm, ⟨19, _⟩ => ⟨S2x2048x64, .f32⟩
  | .hbm, ⟨20, _⟩ => ⟨S2x2048x64, .f32⟩
  | .hbm, ⟨21, _⟩ => ⟨S2x2048x64, .f32⟩
  | .hbm, ⟨22, _⟩ => ⟨S_, .f32⟩
  | .hbm, ⟨23, _⟩ => ⟨S2x2048x64, .f32⟩
  | .hbm, ⟨24, _⟩ => ⟨S2x2048x64, .f32⟩
  | .hbm, ⟨25, _⟩ => ⟨S2x2048x64, .f32⟩
  | .hbm, ⟨26, _⟩ => ⟨S64, .f32⟩
  | .hbm, ⟨27, _⟩ => ⟨S1x1x64, .f32⟩
  | .hbm, ⟨28, _⟩ => ⟨S2x2048x64, .f32⟩
  | .hbm, ⟨29, _⟩ => ⟨S2x2048x64, .f32⟩
  | _, _ => ⟨S2x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_v0 : Ref sig .tc := ⟨.hbm, 9, rfl⟩
abbrev main_call0_cst : Ref sig .tc := ⟨.hbm, 10, rfl⟩
abbrev main_call0_v1 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_call1_v0 : Ref sig .tc := ⟨.hbm, 15, rfl⟩
abbrev main_call1_v1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_0 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩

abbrev nD : Nat := 1
abbrev τ : Topo := Topo.v7x

variable {F : FTy → Type} [FloatOps F]

class Facts₀ : Prop where
  bcast_S2x2048x512_S2x2048x1x512_0_1_3 : S2x2048x512.BroadcastsInDim S2x2048x1x512 (![0, 1, 3] : Fin 3 → Fin S2x2048x1x512.rank)
  bcast_S64x512_S1x1x64x512_2_3 : S64x512.BroadcastsInDim S1x1x64x512 (![2, 3] : Fin 2 → Fin S1x1x64x512.rank)
  bcast_S2x2048x1x512_S2x2048x64x512_0_1_2_3 : S2x2048x1x512.BroadcastsInDim S2x2048x64x512 (![0, 1, 2, 3] : Fin 4 → Fin S2x2048x64x512.rank)
  bcast_S1x1x64x512_S2x2048x64x512_0_1_2_3 : S1x1x64x512.BroadcastsInDim S2x2048x64x512 (![0, 1, 2, 3] : Fin 4 → Fin S2x2048x64x512.rank)
  reducesTo_S2x2048x64x512_S2x2048x64_d3 : S2x2048x64x512.ReducesTo [3] S2x2048x64
  h_S_ : 0 < S_.numel
  bcast_S_S64 : S_.BroadcastsInDim S64 (![] : Fin 0 → Fin S64.rank)
  bcast_S64_S1x1x64_2 : S64.BroadcastsInDim S1x1x64 (![2] : Fin 1 → Fin S1x1x64.rank)
  bcast_S1x1x64_S2x2048x64_0_1_2 : S1x1x64.BroadcastsInDim S2x2048x64 (![0, 1, 2] : Fin 3 → Fin S2x2048x64.rank)
  bcast_S_S2x2048x64 : S_.BroadcastsInDim S2x2048x64 (![] : Fin 0 → Fin S2x2048x64.rank)

variable [Facts₀]

class Facts : Prop extends Facts₀ where

variable [Facts]
-- ==== Proof.Spec.lean ====
/-
  One output element as a function of one token row u, one splat row v, one scale s and one
  importance a, in the two arrangements the two programs compute, and the law that joins them.

  The kernel expands the squared distance, |u|^2 - 2 <u, v> + |v|^2, clamps it at zero, scales it by
  -1/2 and divides by the SQUARE of the clipped scale; the reference takes the square root of
  the sum of (u - v)^2, divides by the clipped scale and squares the quotient. Over the reals these agree:
  the expansion is the binomial identity summed over the row, the sum of squares is nonnegative so
  the clamp and the root-then-square are both the identity, and a quotient's square is the quotient
  of the squares because the clipped scale is at least the positive literal. Every step needs the
  entries to be real numbers (distributivity and cancelling fail at the infinities), which is what
  the finiteness of the inputs provides; the importance is a common factor and may be anything.
-/
import Idealize.ShloMosaic.PureOps.Ideal
import Idealize.ShloMosaic.PureOps.Ideal.Laws

noncomputable section

namespace Cert.Splat

open Idealize.ShloMosaic

/-- The kernel's arrangement of one output element. -/
def kerF (u v : Fin 512 → EReal) (s a : EReal) : EReal :=
  Ideal.exp (Ideal.div
      (Ideal.ofBits .f32 0xBF000000#32 *
        max (((∑ d, u d * u d) - Ideal.ofBits .f32 0x40000000#32 * (∑ d, u d * v d)) + (∑ d, v d * v d))
          (Ideal.ofBits .f32 0x00000000#32))
      (max (max s (-s)) (Ideal.ofBits .f32 0x358637BD#32) * max (max s (-s)) (Ideal.ofBits .f32 0x358637BD#32)))
    * max a (-a)

/-- The reference's arrangement of the same element. -/
def refF (u v : Fin 512 → EReal) (s a : EReal) : EReal :=
  Ideal.exp (Ideal.ofBits .f32 0xBF000000#32 *
      (Ideal.div (Ideal.sqrt (Ideal.ofBits .f32 0x00000000#32 + ∑ d, (u d - v d) * (u d - v d)))
          (max (Ideal.ofBits .f32 0x358637BD#32) (max s (-s)))
        * Ideal.div (Ideal.sqrt (Ideal.ofBits .f32 0x00000000#32 + ∑ d, (u d - v d) * (u d - v d)))
          (max (Ideal.ofBits .f32 0x358637BD#32) (max s (-s)))))
    * max a (-a)

/-! ## The four literals -/

/-- The word of 2.0 denotes the real number two. -/
theorem two_eq : Ideal.ofBits .f32 0x40000000#32 = ((2 : ℝ) : EReal) := by
  simp [Ideal.ofBits, Ideal.ieee, -EReal.coe_mul]; norm_num

/-- The word of -0.5 denotes the real number -1/2. -/
theorem neg_half_eq : Ideal.ofBits .f32 0xBF000000#32 = ((-(1 / 2) : ℝ) : EReal) := by
  simp [Ideal.ofBits, Ideal.ieee, -EReal.coe_mul]; norm_num

/-- The clip literal (the float nearest 1e-6) denotes a positive real. -/
theorem eps_eq : ∃ e : ℝ, 0 < e ∧ Ideal.ofBits .f32 0x358637BD#32 = (e : EReal) := by
  refine ⟨(2 ^ 23 + 407485 : ℕ) * (2 : ℝ) ^ ((107 : ℤ) - 127 - 23), by positivity, ?_⟩
  simp [Ideal.ofBits, Ideal.ieee, -EReal.coe_mul]

/-! ## Sums of reals inside the extended reals -/

theorem coe_sum {ι : Type*} (S : Finset ι) (f : ι → ℝ) : ((∑ d ∈ S, f d : ℝ) : EReal) = ∑ d ∈ S, (f d : EReal) := by
  classical
  induction S using Finset.induction_on with
  | empty => simp
  | insert a S ha ih => rw [Finset.sum_insert ha, Finset.sum_insert ha, EReal.coe_add, ih]

/-- The inclusion of the reals is monotone, so it commutes with max. -/
theorem coe_max (x y : ℝ) : ((max x y : ℝ) : EReal) = max (x : EReal) (y : EReal) :=
  EReal.coe_strictMono.monotone.map_max

/-- Over the reals: scaling a nonnegative number and dividing by a square is scaling the square of
    (its root over the divisor). -/
theorem real_law (c D S : ℝ) (hD : 0 ≤ D) (hS : 0 < S) :
    c * D * (1 / (S * S)) = c * (Real.sqrt D * (1 / S) * (Real.sqrt D * (1 / S))) := by
  have h := Real.mul_self_sqrt hD
  have e : Real.sqrt D * (1 / S) * (Real.sqrt D * (1 / S)) = (Real.sqrt D * Real.sqrt D) * (1 / (S * S)) := by
    field_simp
  rw [e, h]; ring

/-! ## The law -/

/-- On real rows and a real scale the two arrangements are one extended real. -/
theorem kerF_eq_refF (u v : Fin 512 → ℝ) (s : ℝ) (a : EReal) :
    kerF (fun d => (u d : EReal)) (fun d => (v d : EReal)) (s : EReal) a
      = refF (fun d => (u d : EReal)) (fun d => (v d : EReal)) (s : EReal) a := by
  obtain ⟨e, he, hE⟩ := eps_eq
  unfold kerF refF
  rw [hE, two_eq, neg_half_eq, Ideal.ofBits_zero_f32]
  -- the scale: a positive real on both sides
  have hS : max (max (s : EReal) (-(s : EReal))) (e : EReal) = ((max (max s (-s)) e : ℝ) : EReal) := by
    rw [← EReal.coe_neg, ← coe_max, ← coe_max]
  have hS' : max (e : EReal) (max (s : EReal) (-(s : EReal))) = ((max (max s (-s)) e : ℝ) : EReal) := by
    rw [max_comm, hS]
  have hSpos : 0 < max (max s (-s)) e := lt_max_of_lt_right he
  -- the sums, as real sums
  have hU : (∑ d, (u d : EReal) * (u d : EReal)) = ((∑ d, u d * u d : ℝ) : EReal) := by
    rw [coe_sum]; exact Finset.sum_congr rfl fun d _ => (EReal.coe_mul _ _).symm
  have hP : (∑ d, (u d : EReal) * (v d : EReal)) = ((∑ d, u d * v d : ℝ) : EReal) := by
    rw [coe_sum]; exact Finset.sum_congr rfl fun d _ => (EReal.coe_mul _ _).symm
  have hV : (∑ d, (v d : EReal) * (v d : EReal)) = ((∑ d, v d * v d : ℝ) : EReal) := by
    rw [coe_sum]; exact Finset.sum_congr rfl fun d _ => (EReal.coe_mul _ _).symm
  have hD : (∑ d, ((u d : EReal) - (v d : EReal)) * ((u d : EReal) - (v d : EReal)))
      = ((∑ d, (u d - v d) * (u d - v d) : ℝ) : EReal) := by
    rw [coe_sum]; exact Finset.sum_congr rfl fun d _ => by rw [← EReal.coe_sub, ← EReal.coe_mul]
  -- the binomial identity, summed
  have hexp : (∑ d, u d * u d) - 2 * (∑ d, u d * v d) + (∑ d, v d * v d) = ∑ d, (u d - v d) * (u d - v d) := by
    rw [Finset.mul_sum, ← Finset.sum_sub_distrib, ← Finset.sum_add_distrib]
    exact Finset.sum_congr rfl fun d _ => by ring
  have hDnn : 0 ≤ ∑ d, (u d - v d) * (u d - v d) := Finset.sum_nonneg fun d _ => mul_self_nonneg _
  rw [hS, hS', hU, hP, hV, hD, zero_add]
  -- the kernel's side as a real
  have hk : ((∑ d, u d * u d : ℝ) : EReal) - ((2 : ℝ) : EReal) * ((∑ d, u d * v d : ℝ) : EReal) + ((∑ d, v d * v d : ℝ) : EReal)
      = ((∑ d, (u d - v d) * (u d - v d) : ℝ) : EReal) := by
    rw [← EReal.coe_mul, ← EReal.coe_sub, ← EReal.coe_add, hexp]
  rw [hk, ← EReal.coe_zero, ← coe_max, max_eq_left hDnn, ← EReal.coe_mul, ← EReal.coe_mul,
    Ideal.div_coe (mul_pos hSpos hSpos).ne', ← EReal.coe_mul]
  -- the reference's side as a real
  rw [Ideal.sqrt_coe, if_neg (not_lt.mpr hDnn), Ideal.div_coe hSpos.ne', ← EReal.coe_mul, ← EReal.coe_mul, ← EReal.coe_mul]
  rw [real_law _ _ _ hDnn hSpos]

end Cert.Splat

end
-- ==== Proof.LibColumn.lean ====
/-
  Two layout operations of a keepdims row reduction, read at an index: a vector of length a viewed as
  an a-by-1 column reads its own entry, and an a-by-1 column broadcast along the second axis to
  a-by-b reads the column's entry of the same row.
-/
import Idealize.ShloMosaic.Lib.ValueIdx
import Idealize.ShloMosaic.Lib.Pipeline.Value

namespace Cert.Splat.Column

open Idealize.ShloMosaic Idealize.ShloMosaic.ValueIdx

variable {α : Type}

/-- A length-a vector cast to an a-by-1 column reads, at (i, u), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An a-by-1 column broadcast to a-by-b reads, at (p, c), the column at row p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Splat.Column
-- ==== Proof.Pay.lean ====
/-
  What one grid point's body stores, read at row r and splat k: the kernel's arrangement (Spec) of
  row r of the token block, row k of the splat table, and entry k of the scale and importance rows.
  The two row sums are lane reductions read as sums over the 512 coordinates, the product with the
  transposed splat table is a matrix product into a zero accumulator read as the sum of the products
  over the contracted axis (the rounding to half precision on the way in is the identity on the
  extended reals), and the rest of the body is pointwise.
-/
import proofs.«109968_j38431367364862_2_alg».proof.Proof.Spec
import proofs.«109968_j38431367364862_2_alg».proof.Proof.LibColumn
import proofs.«109968_j38431367364862_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.Splat

open Idealize.ShloMosaic Idealize.ShloMosaic.ValueIdx Cert.KernelIdeal Cert.KernelIdeal.Gen

/-- A lane sum of a 1024-by-512 block at row r is the sum over the row's 512 entries. -/
theorem rowsum_x (v : FVec Ideal S1024x512 .f32) (h : S1024x512.Reduces [1] S1024) (hφ : FKind.Formats .f32)
    (hacc : (0x00000000#32 : BitVec (FTy.bits .f32)) = FKind.add.neutral .f32 hφ) (r : Fin 1024) :
    multiReduction .add [1] S1024 v 0x00000000#32 h hφ hacc (ix1 r) = ∑ d : Fin 512, v (ix2 r d) := by
  refine (Ideal.multiReduction_add_single v 0x00000000#32 h hφ hacc (ix1 r)).trans ?_
  exact Finset.sum_congr rfl fun d _ => congrArg v (funext fun a => Fin.ext (by
    match a with | ⟨0, _⟩ => rfl | ⟨1, _⟩ => rfl))

/-- The same for the 64-by-512 splat table. -/
theorem rowsum_p (v : FVec Ideal S64x512 .f32) (h : S64x512.Reduces [1] S64) (hφ : FKind.Formats .f32)
    (hacc : (0x00000000#32 : BitVec (FTy.bits .f32)) = FKind.add.neutral .f32 hφ) (k : Fin 64) :
    multiReduction .add [1] S64 v 0x00000000#32 h hφ hacc (ix1 k) = ∑ d : Fin 512, v (ix2 k d) := by
  refine (Ideal.multiReduction_add_single v 0x00000000#32 h hφ hacc (ix1 k)).trans ?_
  exact Finset.sum_congr rfl fun d _ => congrArg v (funext fun a => Fin.ext (by
    match a with | ⟨0, _⟩ => rfl | ⟨1, _⟩ => rfl))

/-! ## The matrix product: rows of the left operand against rows of the right -/

theorem lhs_0 (i : S1024x64.Idx) (q : dot_S1024x512_S64x512_S1024x64_1_1_0_0_n_n.contr.Idx) :
    (dot_S1024x512_S64x512_S1024x64_1_1_0_0_n_n.lhsIdx i q 0).val = (i 0).val := by
  unfold DotDims.lhsIdx
  rw [dif_neg (show ¬(0 : Fin S1024x512.rank) ∈ dot_S1024x512_S64x512_S1024x64_1_1_0_0_n_n.lhsBatch by decide),
    dif_pos (show (0 : Fin S1024x512.rank) ∈ dot_S1024x512_S64x512_S1024x64_1_1_0_0_n_n.lhsNonContracting by decide)]
  rfl
theorem lhs_1 (i : S1024x64.Idx) (q : dot_S1024x512_S64x512_S1024x64_1_1_0_0_n_n.contr.Idx) :
    (dot_S1024x512_S64x512_S1024x64_1_1_0_0_n_n.lhsIdx i q 1).val = (q ⟨0, by decide⟩).val :=
  dot_S1024x512_S64x512_S1024x64_1_1_0_0_n_n.lhsIdx_val_of_single rfl i q
theorem rhs_0 (i : S1024x64.Idx) (q : dot_S1024x512_S64x512_S1024x64_1_1_0_0_n_n.contr.Idx) :
    (dot_S1024x512_S64x512_S1024x64_1_1_0_0_n_n.rhsIdx i q 0).val = (i 1).val := by
  unfold DotDims.rhsIdx
  rw [dif_neg (show ¬(0 : Fin S64x512.rank) ∈ dot_S1024x512_S64x512_S1024x64_1_1_0_0_n_n.rhsBatch by decide),
    dif_pos (show (0 : Fin S64x512.rank) ∈ dot_S1024x512_S64x512_S1024x64_1_1_0_0_n_n.rhsNonContracting by decide)]
  rfl
theorem rhs_1 (i : S1024x64.Idx) (q : dot_S1024x512_S64x512_S1024x64_1_1_0_0_n_n.contr.Idx) :
    (dot_S1024x512_S64x512_S1024x64_1_1_0_0_n_n.rhsIdx i q 1).val = (q ⟨0, by decide⟩).val :=
  dot_S1024x512_S64x512_S1024x64_1_1_0_0_n_n.rhsIdx_val_of_single rfl i q

/-- The product into a zero accumulator at (r, k) is the sum over d of left (r, d) times right (k, d). -/
theorem matmul_rows (a : FVec Ideal S1024x512 .bf16) (b : FVec Ideal S64x512 .bf16) (r : Fin 1024) (k : Fin 64) :
    matmul dot_S1024x512_S64x512_S1024x64_1_1_0_0_n_n none a b (constant (F := Ideal) S1024x64 .f32 0x00000000#32) (ix2 r k)
      = ∑ d : Fin 512, a (ix2 r d) * b (ix2 k d) := by
  refine (Ideal.matmul_constant_zero_apply dot_S1024x512_S64x512_S1024x64_1_1_0_0_n_n none a b (ix2 r k)).trans ?_
  rw [← Equiv.sum_comp (contrEquiv1 dot_S1024x512_S64x512_S1024x64_1_1_0_0_n_n 512 rfl rfl).symm]
  refine Finset.sum_congr rfl fun d _ => ?_
  have hk := contrEquiv1_symm_val dot_S1024x512_S64x512_S1024x64_1_1_0_0_n_n 512 rfl rfl d
  have el : dot_S1024x512_S64x512_S1024x64_1_1_0_0_n_n.lhsIdx (ix2 r k)
      ((contrEquiv1 dot_S1024x512_S64x512_S1024x64_1_1_0_0_n_n 512 rfl rfl).symm d) = ix2 r d :=
    funext fun ax => Fin.ext (by
      match ax with
      | ⟨0, _⟩ => exact lhs_0 _ _
      | ⟨1, _⟩ => exact (lhs_1 _ _).trans hk)
  have er : dot_S1024x512_S64x512_S1024x64_1_1_0_0_n_n.rhsIdx (ix2 r k)
      ((contrEquiv1 dot_S1024x512_S64x512_S1024x64_1_1_0_0_n_n 512 rfl rfl).symm d) = ix2 k d :=
    funext fun ax => Fin.ext (by
      match ax with
      | ⟨0, _⟩ => exact rhs_0 _ _
      | ⟨1, _⟩ => exact (rhs_1 _ _).trans hk)
  rw [el, er]

/-! ## The payload at an index -/

/-- The body's stored value at (r, k), from the four blocks it loads. -/
theorem pay_apply (x0 : Vec Ideal S1024x512 .f32) (x1 : Vec Ideal S64x512 .f32) (x2 x3 : Vec Ideal S1x64 .f32)
    (r : Fin 1024) (k : Fin 64) :
    k0_pay1 (F := Ideal) x0 x1 x2 x3 (ix2 r k)
      = kerF (fun d => x0 (ix2 r d)) (fun d => x1 (ix2 k d)) (x2 (ix2 (0 : Fin 1) k)) (x3 (ix2 (0 : Fin 1) k)) := by
  unfold k0_pay1 kerF
  simp only [shapeCast_self]
  show Ideal.exp (Ideal.div (_ * max ((_ - _ * _) + _) _) _) * _ = _
  refine congrArg₂ (· * ·) (congrArg Ideal.exp (congrArg₂ Ideal.div (congrArg₂ (· * ·) rfl (congrArg₂ max
    (congrArg₂ (· + ·) (congrArg₂ (· - ·) ?_ (congrArg₂ (· * ·) rfl ?_)) ?_) rfl)) ?_)) ?_
  · -- the token row's squared norm, kept as a column and broadcast along the splats
    refine (Column.broadcastTo_a1_ab_apply _ _ r k).trans ?_
    refine (Column.shapeCast_a_a1_apply _ _ r (0 : Fin 1)).trans ?_
    exact rowsum_x _ _ _ _ r
  · exact matmul_rows _ _ r k
  · -- the splat row's squared norm, kept as a row and broadcast along the tokens
    refine (broadcastTo_1b_ab_apply _ _ r k).trans ?_
    refine (shapeCast_a_1a_apply _ _ (0 : Fin 1) k).trans ?_
    exact rowsum_p _ _ _ _ k
  · exact broadcastTo_1b_ab_apply _ _ r k
  · exact broadcastTo_1b_ab_apply _ _ r k

end Cert.Splat

end
-- ==== Proof.Blocks.lean ====
/-
  From what each grid point writes back to the whole 4096-by-64 array the region leaves.
  Grid point t handles token rows 1024 t .. 1024 t + 1023: its token block is those rows of the
  flattened token array, the splat table, the scale row and the importance row are the same whole
  arrays at every point, and its output block is those rows of the result. So every point writes the
  matching rows of ONE function K of the four arrays (row i, splat k: the kernel's arrangement of
  Spec on row i of the tokens and row k of the splats), the four blocks tile the array, and the
  array ends holding K.
-/
import proofs.«109968_j38431367364862_2_alg».proof.Proof.Pay
import proofs.«109968_j38431367364862_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.Splat

open Cert.KernelIdeal Cert.KernelIdeal.Gen

variable (m : (ℓ : Loc nD τ sig) → Buf (Elt Ideal) ℓ)

/-- The region's result as one function of the arrays it is launched on: entry (i, k) from row i of
    the flattened tokens, row k of the splats, and entry k of the scale and importance rows. -/
def K (X : S4096x512.Idx → EReal) (P : S64x512.Idx → EReal) (Sc Im : S1x64.Idx → EReal) : S4096x64.Idx → EReal :=
  fun i => kerF (fun d => X (ix2 (i 0) d)) (fun d => P (ix2 (i 1) d)) (Sc (ix2 (0 : Fin 1) (i 1))) (Im (ix2 (0 : Fin 1) (i 1)))

theorem hz : (![0, 0] : Fin 2 → Nat) = fun _ => 0 := funext fun a => by fin_cases a <;> rfl

/-- The block indices over the grid: the token and result windows move with the point along the rows,
    the three small windows stay at the origin. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- The token block at point t, row r, is row 1024 t + r of the flattened token array. -/
theorem iblk0_apply (c : Dev nD) (t : Fin cfg0.N) (r : Fin 1024) (d : Fin 512) (i : S4096x512.Idx)
    (hi0 : (i 0).val = t.val * 1024 + r.val) (hi1 : (i 1).val = d.val) :
    (iblk m c 0 t : Vec Ideal S1024x512 .f32) (ix2 r d) = V m c main_v0 i := by
  obtain ⟨e0, e1, -⟩ := idx_facts t
  unfold iblk
  rw [View.read_apply]
  show V m c main_v0 _ = V m c main_v0 i
  refine congrArg (V m c main_v0) (funext fun a => Fin.ext ?_)
  match a with
  | ⟨0, _⟩ => show win0_0.index t (0 : Fin 2) * 1024 + 1 * r.val = (i 0).val; rw [hi0, e0]; omega
  | ⟨1, _⟩ => show win0_0.index t (1 : Fin 2) * 512 + 1 * d.val = (i 1).val; rw [hi1, e1]; omega

/-- The splat block at every point is the whole splat table. -/
theorem iblk1_apply (c : Dev nD) (t : Fin cfg0.N) (k : Fin 64) (d : Fin 512) (i : S64x512.Idx)
    (hi0 : (i 0).val = k.val) (hi1 : (i 1).val = d.val) :
    (iblk m c 1 t : Vec Ideal S64x512 .f32) (ix2 k d) = V m c main_arg1 i := by
  obtain ⟨-, -, e2, e3, -⟩ := idx_facts t
  unfold iblk
  rw [View.read_apply]
  show V m c main_arg1 _ = V m c main_arg1 i
  refine congrArg (V m c main_arg1) (funext fun a => Fin.ext ?_)
  match a with
  | ⟨0, _⟩ => show win0_1.index t (0 : Fin 2) * 64 + 1 * k.val = (i 0).val; rw [hi0, e2]; omega
  | ⟨1, _⟩ => show win0_1.index t (1 : Fin 2) * 512 + 1 * d.val = (i 1).val; rw [hi1, e3]; omega

/-- The scale block at every point is the whole scale row. -/
theorem iblk2_apply (c : Dev nD) (t : Fin cfg0.N) (k : Fin 64) (i : S1x64.Idx)
    (hi0 : (i 0).val = 0) (hi1 : (i 1).val = k.val) :
    (iblk m c 2 t : Vec Ideal S1x64 .f32) (ix2 (0 : Fin 1) k) = V m c main_v1 i := by
  obtain ⟨-, -, -, -, e4, e5, -⟩ := idx_facts t
  unfold iblk
  rw [View.read_apply]
  show V m c main_v1 _ = V m c main_v1 i
  refine congrArg (V m c main_v1) (funext fun a => Fin.ext ?_)
  match a with
  | ⟨0, _⟩ => show win0_2.index t (0 : Fin 2) * 1 + 1 * 0 = (i 0).val; rw [hi0, e4]
  | ⟨1, _⟩ => show win0_2.index t (1 : Fin 2) * 64 + 1 * k.val = (i 1).val; rw [hi1, e5]; omega

/-- The importance block likewise. -/
theorem iblk3_apply (c : Dev nD) (t : Fin cfg0.N) (k : Fin 64) (i : S1x64.Idx)
    (hi0 : (i 0).val = 0) (hi1 : (i 1).val = k.val) :
    (iblk m c 3 t : Vec Ideal S1x64 .f32) (ix2 (0 : Fin 1) k) = V m c main_v2 i := by
  obtain ⟨-, -, -, -, -, -, e6, e7, -⟩ := idx_facts t
  unfold iblk
  rw [View.read_apply]
  show V m c main_v2 _ = V m c main_v2 i
  refine congrArg (V m c main_v2) (funext fun a => Fin.ext ?_)
  match a with
  | ⟨0, _⟩ => show win0_3.index t (0 : Fin 2) * 1 + 1 * 0 = (i 0).val; rw [hi0, e6]
  | ⟨1, _⟩ => show win0_3.index t (1 : Fin 2) * 64 + 1 * k.val = (i 1).val; rw [hi1, e7]; omega

/-- What point t writes back is rows 1024 t .. 1024 t + 1023 of K of the arrays as the region finds them. -/
theorem flushed_eq (c : Dev nD) (t : Fin cfg0.N) :
    (dats m 0 c).flushed 4 t
      = ((cfg0.win 4).blk t).view.read (Elt Ideal) (K (V m c main_v0) (V m c main_arg1) (V m c main_v1) (V m c main_v2)) := by
  show (cfg0.win 4).cut (grid0.coords t) ((dats m 0 c).after 4 t) = _
  rw [after0_4]
  unfold out0_4
  rw [View.canon_unit_zero hz]
  simp only [View.ld_unit_zero (S := S1024x512) hz, View.ld_unit_zero (S := S64x512) hz, View.ld_unit_zero (S := S1x64) hz]
  obtain ⟨-, -, -, -, -, -, -, -, e8, e9⟩ := idx_facts t
  funext j
  obtain ⟨r, k, rfl⟩ : ∃ (r : Fin 1024) (k : Fin 64), j = ix2 r k := ⟨j 0, j 1, eq_ix2 j⟩
  show k0_pay1 (F := Ideal) (iblk m c 0 t) (iblk m c 1 t) (iblk m c 2 t) (iblk m c 3 t) (ix2 r k)
    = K (V m c main_v0) (V m c main_arg1) (V m c main_v1) (V m c main_v2) (((cfg0.win 4).blk t).view.emb (ix2 r k))
  refine (pay_apply (iblk m c 0 t) (iblk m c 1 t) (iblk m c 2 t) (iblk m c 3 t) r k).trans ?_
  unfold K
  have h0 : ((((cfg0.win 4).blk t).view.emb (ix2 r k)) 0).val = t.val * 1024 + r.val := by
    show win0_4.index t (0 : Fin 2) * 1024 + 1 * r.val = _; rw [e8]; omega
  have h1 : ((((cfg0.win 4).blk t).view.emb (ix2 r k)) 1).val = k.val := by
    show win0_4.index t (1 : Fin 2) * 64 + 1 * k.val = _; rw [e9]; omega
  refine congr (congr (congr (congrArg kerF (funext fun d => ?_)) (funext fun d => ?_)) ?_) ?_
  · exact iblk0_apply m c t r d _ h0 rfl
  · exact iblk1_apply m c t k d _ h1 rfl
  · exact iblk2_apply m c t k _ rfl h1
  · exact iblk3_apply m c t k _ rfl h1

/-- An index of the result array is in point t's block iff each coordinate is in the block's range. -/
theorem mem_blk (t : Fin cfg0.N) (i : S4096x64.Idx) :
    i ∈ ((cfg0.win 4).blk t).view.set ↔ ∀ a : Fin 2, win0_4.index t a * S1024x64.size a ≤ (i a).val
      ∧ (i a).val < win0_4.index t a * S1024x64.size a + S1024x64.size a := by
  show i ∈ ((View.whole main_v3).slice (win0_4.rect t)).set ↔ _
  rw [View.set_slice_whole, Rect.mem_set_unit]
  exact Iff.rfl

/-- Row i of the result is written by the point i / 1024. -/
theorem cover (i : S4096x64.Idx) : ∃ t : Fin cfg0.N, (cfg0.win 4).flush t = true ∧ i ∈ ((cfg0.win 4).blk t).view.set := by
  have hi0 : (i 0).val < 4096 := (i 0).isLt
  have hi1 : (i 1).val < 64 := (i 1).isLt
  have hN : cfg0.N = 4 := N_0
  have hq : (i 0).val / 1024 < cfg0.N := by rw [hN]; omega
  obtain ⟨-, -, -, -, -, -, -, -, e8, e9⟩ := idx_facts ⟨(i 0).val / 1024, hq⟩
  have e8' : win0_4.index ⟨(i 0).val / 1024, hq⟩ (0 : Fin 2) = (i 0).val / 1024 := e8
  refine ⟨⟨(i 0).val / 1024, hq⟩, flush0_4 _, ?_⟩
  rw [mem_blk]
  intro a
  match a with
  | ⟨0, _⟩ =>
    show win0_4.index ⟨(i 0).val / 1024, hq⟩ (0 : Fin 2) * 1024 ≤ (i 0).val
      ∧ (i 0).val < win0_4.index ⟨(i 0).val / 1024, hq⟩ (0 : Fin 2) * 1024 + 1024
    rw [e8']; omega
  | ⟨1, _⟩ =>
    show win0_4.index ⟨(i 0).val / 1024, hq⟩ (1 : Fin 2) * 64 ≤ (i 1).val
      ∧ (i 1).val < win0_4.index ⟨(i 0).val / 1024, hq⟩ (1 : Fin 2) * 64 + 64
    rw [e9]; omega

/-- The result array after the region is K of the arrays as the region finds them. -/
theorem final_arr (c : Dev nD) :
    (dats m 0 c).arrAt 4 cfg0.N = K (V m c main_v0) (V m c main_arg1) (V m c main_v1) (V m c main_v2) :=
  (dats m 0 c).arrAt_eq_of_cover 4 (K (V m c main_v0) (V m c main_arg1) (V m c main_v1) (V m c main_v2))
    (fun t _ => flushed_eq m c t) cover

end Cert.Splat

end
-- ==== Proof.KernelRun.lean ====
/-
  The idealized kernel's whole run, read: the program flattens the token array to 4096 rows, views
  the scales and the importances as 1-by-64 rows, launches the region on them and the splat table,
  and views the region's 4096-by-64 result as 2-by-2048-by-64. So the result buffer ends holding that
  view of K (Blocks) of the flattened arguments, and the four arguments are unchanged.
-/
import proofs.«109968_j38431367364862_2_alg».proof.Proof.Blocks
import Idealize.ShloMosaic.Lib.StableHlo.Run
import Idealize.ShloMosaic.Lib.Pipeline.FrameSuffix

noncomputable section

open Idealize.ShloMosaic Idealize.ShloMosaic.TcCoe Idealize.SL.Sem Idealize.ShloMosaic.ValueIdx
open Idealize.ShloMosaic.Pipeline (Dat)
open Idealize.ShloMosaic.StableHlo

namespace Cert.Splat

open Cert.KernelIdeal Cert.KernelIdeal.Gen

variable (m : (ℓ : Loc nD τ sig) → Buf (Elt Ideal) ℓ) (ρ : Dev nD → PrngReg)

/-- The kernel program's result as a function of its four argument arrays. -/
def kerOut (x : S2x2048x512.Idx → EReal) (p : S64x512.Idx → EReal) (s a : S64.Idx → EReal) : S2x2048x64.Idx → EReal :=
  shapeCast S2x2048x64
    (K (shapeCast S4096x512 x shapeCasts_S2x2048x512_S4096x512) p (shapeCast S1x64 s shapeCasts_S64_S1x64)
      (shapeCast S1x64 a shapeCasts_S64_S1x64))
    shapeCasts_S4096x64_S2x2048x64

/-- The region finds the token array flattened to 4096 rows. -/
theorem V_tokens (c : Dev nD) : (V m c main_v0 : S4096x512.Idx → EReal)
    = shapeCast S4096x512 (m ((c : Thread nD τ).loc main_arg0)) shapeCasts_S2x2048x512_S4096x512 := by
  show StableHlo.after hostOps0 (fun b => m (c, b)) (Proc.devRef .tc main_v0) = _
  after_results
  rfl

/-- It finds the scales as a 1-by-64 row. -/
theorem V_scales (c : Dev nD) : (V m c main_v1 : S1x64.Idx → EReal)
    = shapeCast S1x64 (m ((c : Thread nD τ).loc main_arg2)) shapeCasts_S64_S1x64 := by
  show StableHlo.after hostOps0 (fun b => m (c, b)) (Proc.devRef .tc main_v1) = _
  after_results
  rfl

/-- It finds the importances as a 1-by-64 row. -/
theorem V_importance (c : Dev nD) : (V m c main_v2 : S1x64.Idx → EReal)
    = shapeCast S1x64 (m ((c : Thread nD τ).loc main_arg3)) shapeCasts_S64_S1x64 := by
  show StableHlo.after hostOps0 (fun b => m (c, b)) (Proc.devRef .tc main_v2) = _
  after_results
  rfl

/-- The program's result buffer after the last host operation: the region's array viewed in three axes. -/
theorem tail_eq (c : Dev nD) :
    Pipeline.afterTail₀ cfgs (dats m) 0 (V0 m) [hostOps1] c main_v4
      = kerOut (m ((c : Thread nD τ).loc main_arg0)) (m ((c : Thread nD τ).loc main_arg1))
          (m ((c : Thread nD τ).loc main_arg2)) (m ((c : Thread nD τ).loc main_arg3)) := by
  unfold Pipeline.afterTail₀
  show StableHlo.after hostOps1 _ (Proc.devRef .tc main_v4) = _
  after_results
  show shapeCast S2x2048x64 (Pipeline.withArrays spec0 c (V0 m c) (fun w => (dats m 0 c).arrAt w cfg0.N)
    (Proc.devRef .tc (Pipeline.arrRef spec0 4))) shapeCasts_S4096x64_S2x2048x64 = _
  rw [Pipeline.withArrays_arr spec0 launch0.win.arr_inj c, final_arr, V_tokens, V_main_arg1, V_scales, V_importance]
  rfl

/-- The run: the result buffer ends at the kernel's result function of the arguments, which are unchanged. -/
theorem run : θ_run defs (onTc (τ := τ) (main (F := Ideal))) ⟨m, fun _ => 0, ρ⟩ (fun r => ∀ c : Dev nD,
      r.2.mem ((c.tc : Thread nD τ).loc main_v4)
        = kerOut (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v4 (Pipeline.mem_restRefs_of main_v4 (by decide) (by decide))).trans (tail_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.Splat

end
-- ==== Proof.RefG.lean ====
/-
  The result as ONE function of the four argument arrays, index by index: entry (b, t, k) is the
  element function of Spec (the reference's arrangement) of token row (b, t), splat row k, scale k
  and importance k. The reference program computes exactly this: its broadcasts only re-index, its
  sum over the last axis is the sum over the 512 coordinates of the row, and the rest is pointwise.
-/
import proofs.«109968_j38431367364862_2_alg».proof.Proof.Spec
import proofs.«109968_j38431367364862_2_alg».proof.Proof.Gen.ReferenceIdeal.Read
import Idealize.ShloMosaic.Lib.ValueIdx

noncomputable section

namespace Cert.Splat

open Idealize.ShloMosaic Idealize.ShloMosaic.ValueIdx

/-- The specification: entry (b, t, k) from token row (b, t) and splat k. -/
def G (x : (⟨3, ![2, 2048, 512]⟩ : Shape).Idx → EReal) (p : (⟨2, ![64, 512]⟩ : Shape).Idx → EReal)
    (s a : (⟨1, ![64]⟩ : Shape).Idx → EReal) : (⟨3, ![2, 2048, 64]⟩ : Shape).Idx → EReal :=
  fun i => refF (fun d => x (ix3 (i 0) (i 1) d)) (fun d => p (ix2 (i 2) d)) (s (ix1 (i 2))) (a (ix1 (i 2)))

open Cert.ReferenceIdeal Cert.ReferenceIdeal.Read

/-- The token entry the reference's subtraction reads at (b, t, k, d) is x (b, t, d). -/
theorem idx_x (i : S2x2048x64.Idx) (k : Fin 512) :
    idx_main_v0 (idx_main_v2 (idx_main_call0_v1 i k)) = ix3 (i 0) (i 1) k :=
  funext fun a => Fin.ext (by match a with | ⟨0, _⟩ => rfl | ⟨1, _⟩ => rfl | ⟨2, _⟩ => rfl)

/-- The splat entry it reads there is p (k, d). -/
theorem idx_p (i : S2x2048x64.Idx) (k : Fin 512) :
    idx_main_v1 (idx_main_v3 (idx_main_call0_v1 i k)) = ix2 (i 2) k :=
  funext fun a => Fin.ext (by match a with | ⟨0, _⟩ => rfl | ⟨1, _⟩ => rfl)

/-- The scale broadcast over the batch and token axes reads scale k. -/
theorem idx_s (i : S2x2048x64.Idx) : idx_main_v8 (idx_main_v9 i) = ix1 (i 2) :=
  funext fun a => Fin.ext (by match a with | ⟨0, _⟩ => rfl)

/-- The importance broadcast likewise. -/
theorem idx_a (i : S2x2048x64.Idx) : idx_main_v16 (idx_main_v17 i) = ix1 (i 2) :=
  funext fun a => Fin.ext (by match a with | ⟨0, _⟩ => rfl)

/-- The reference's last stage is the specification. -/
theorem ref_eq_G (x0 : (⟨S2x2048x512, .f32⟩ : BufTy).Contents (Elt Ideal)) (x1 : (⟨S64x512, .f32⟩ : BufTy).Contents (Elt Ideal))
    (x2 x3 : (⟨S64, .f32⟩ : BufTy).Contents (Elt Ideal)) :
    val_main_v18 (F := Ideal) x0 x1 x2 x3 = G x0 x1 x2 x3 := by
  funext i
  rw [val_main_v18_apply, val_main_v14_apply, val_main_v13_apply, val_main_v12_apply, val_main_cst_0_apply,
    val_main_v11_apply, val_main_v10_apply, val_main_v5_apply, val_main_call0_v1_apply, val_main_call0_cst_apply,
    val_main_v9_apply, val_main_v8_apply, val_main_v7_apply, val_main_call1_v1_apply, val_main_call1_v0_apply,
    val_main_cst_apply, val_main_v6_apply, val_main_v17_apply, val_main_v16_apply, val_main_v15_apply]
  simp only [val_main_call0_v0_apply, val_main_v4_apply, val_main_v2_apply, val_main_v0_apply, val_main_v3_apply,
    val_main_v1_apply, idx_x, idx_p, idx_s, idx_a]
  rfl

end Cert.Splat

end
-- ==== Proof.Bridge.lean ====
/-
  The kernel's result function is the specification, on real inputs. Entry (b, t, k) of the
  three-axis view is entry (2048 b + t, k) of the region's array; row 2048 b + t of the flattened
  tokens is token row (b, t); entry k of a 1-by-64 row is entry k of the vector it views. What is left
  is the law of Spec between the two arrangements, on the reals the finite entries are.
-/
import proofs.«109968_j38431367364862_2_alg».proof.Proof.KernelRun
import proofs.«109968_j38431367364862_2_alg».proof.Proof.RefG

noncomputable section

open Idealize.ShloMosaic Idealize.ShloMosaic.ValueIdx

namespace Cert.Splat

open Cert.KernelIdeal Cert.KernelIdeal.Gen

/-- On arrays whose token, splat and scale entries are real numbers the kernel's result is the specification. -/
theorem kerOut_eq_G (x : S2x2048x512.Idx → EReal) (p : S64x512.Idx → EReal) (s a : S64.Idx → EReal)
    (hx : ∀ i, x i ≠ ⊤ ∧ x i ≠ ⊥) (hp : ∀ i, p i ≠ ⊤ ∧ p i ≠ ⊥) (hs : ∀ i, s i ≠ ⊤ ∧ s i ≠ ⊥) :
    kerOut x p s a = G x p s a := by
  funext i
  obtain ⟨b, t, k, rfl⟩ : ∃ (b : Fin 2) (t : Fin 2048) (k : Fin 64), i = ix3 b t k := ⟨i 0, i 1, i 2, eq_ix3 i⟩
  have hq : b.val * 2048 + t.val < 4096 := by omega
  unfold kerOut
  refine (shapeCast_apply _ _ (ix3 b t k) (ix2 (⟨b.val * 2048 + t.val, hq⟩ : Fin 4096) k) (by
    rw [Shape.rowMajor_val_two, Shape.rowMajor_val_three]; rfl)).trans ?_
  have e0 : ∀ d : Fin 512, shapeCast S4096x512 x shapeCasts_S2x2048x512_S4096x512
      (ix2 (⟨b.val * 2048 + t.val, hq⟩ : Fin 4096) d) = x (ix3 b t d) := fun d =>
    shapeCast_apply x _ _ _ (by rw [Shape.rowMajor_val_two, Shape.rowMajor_val_three]; rfl)
  show kerF (fun d => shapeCast S4096x512 x shapeCasts_S2x2048x512_S4096x512 (ix2 (⟨b.val * 2048 + t.val, hq⟩ : Fin 4096) d))
      (fun d => p (ix2 k d)) (shapeCast S1x64 s shapeCasts_S64_S1x64 (ix2 (0 : Fin 1) k))
      (shapeCast S1x64 a shapeCasts_S64_S1x64 (ix2 (0 : Fin 1) k))
    = refF (fun d => x (ix3 b t d)) (fun d => p (ix2 k d)) (s (ix1 k)) (a (ix1 k))
  rw [funext e0, shapeCast_a_1a_apply s _ (0 : Fin 1) k, shapeCast_a_1a_apply a _ (0 : Fin 1) k]
  have hu : (fun d => x (ix3 b t d)) = fun d => (((x (ix3 b t d)).toReal : ℝ) : EReal) :=
    funext fun d => (EReal.coe_toReal (hx _).1 (hx _).2).symm
  have hv : (fun d => p (ix2 k d)) = fun d => (((p (ix2 k d)).toReal : ℝ) : EReal) :=
    funext fun d => (EReal.coe_toReal (hp _).1 (hp _).2).symm
  have hsr : s (ix1 k) = (((s (ix1 k)).toReal : ℝ) : EReal) := (EReal.coe_toReal (hs _).1 (hs _).2).symm
  rw [hu, hv, hsr]
  exact kerF_eq_refF _ _ _ _

end Cert.Splat

end
-- ==== Proof.Finite.lean ====
/-
  The precondition read back: it is the conjunction, over the four inputs, of "every entry has
  absolute value below +infinity". An extended real whose absolute value is below +infinity is
  neither infinity, so every entry of the tokens, the splats and the scales is a real number
  (the importances too, but the proof does not need them: they enter as a common factor).
-/
import proofs.«109968_j38431367364862_2_alg».proof.Pre_finite_inputs
import Idealize.ShloMosaic.Lib.ReduceAll
import Idealize.ShloMosaic.Lib.ValueIdx
import Idealize.ShloMosaic.PureOps.Ideal
import Idealize.ShloMosaic.PureOps.Ideal.Laws

noncomputable section

namespace Cert.Splat

open Idealize.ShloMosaic

/-- The scalar shape has one index. -/
instance : Subsingleton Cert.Pre_finite_inputs.S_.Idx := ⟨fun a b => funext fun d => d.elim0⟩

/-- An extended real whose absolute value compares below the word of +infinity is a real number. -/
theorem real_of_abs_lt (x : EReal)
    (h : Ideal.cmp .olt (max x (-x)) (Ideal.ofBits .f32 0x7F800000#32) = 1#1) : x ≠ ⊤ ∧ x ≠ ⊥ := by
  have htop : Ideal.ofBits .f32 0x7F800000#32 = ⊤ := by simp [Ideal.ofBits, Ideal.ieee]
  rw [htop] at h
  have hlt : max x (-x) < ⊤ := by
    by_contra hn
    simp [Ideal.cmp, hn] at h
  constructor
  · rintro rfl
    exact absurd (lt_of_le_of_lt (le_max_left (⊤ : EReal) (-⊤)) hlt) (lt_irrefl _)
  · rintro rfl
    exact absurd (lt_of_le_of_lt (le_max_right (⊥ : EReal) (-⊥)) hlt) (by rw [EReal.neg_bot]; exact lt_irrefl _)

variable [Cert.Pre_finite_inputs.Facts]

open Cert.Pre_finite_inputs in
/-- Under the precondition every token, splat and scale entry is a real number. -/
theorem finite_of_pre (x0 : FVec Ideal S2x2048x512 .f32) (x1 : FVec Ideal S64x512 .f32) (x2 x3 : FVec Ideal S64 .f32)
    (h : Cert.Pre_finite_inputs.fn (F := Ideal) x0 x1 x2 x3 = fun _ => 1#1) :
    (∀ i, x0 i ≠ ⊤ ∧ x0 i ≠ ⊥) ∧ (∀ i, x1 i ≠ ⊤ ∧ x1 i ≠ ⊥) ∧ (∀ i, x2 i ≠ ⊤ ∧ x2 i ≠ ⊥) := by
  have h0 := congrFun h ValueIdx.ix0
  dsimp only [Cert.Pre_finite_inputs.fn, Cert.Pre_finite_inputs.fn_part1] at h0
  obtain ⟨h012, -⟩ := IntOp.andi_eq_one.1 h0
  obtain ⟨h01, h2⟩ := IntOp.andi_eq_one.1 h012
  obtain ⟨hx0, hx1⟩ := IntOp.andi_eq_one.1 h01
  exact ⟨fun i => real_of_abs_lt _ (Host.reduce_andi_all _ _ _ _ _ hx0 i),
    fun i => real_of_abs_lt _ (Host.reduce_andi_all _ _ _ _ _ hx1 i),
    fun i => real_of_abs_lt _ (Host.reduce_andi_all _ _ _ _ _ h2 i)⟩

end Cert.Splat

end
-- ==== Proof.lean ====
/-
  The claim: the Pallas kernel (squared distances by the quadratic expansion through one matrix
  product, clamped, scaled and exponentiated) against the reference (norm of the broadcast
  difference, divided by the clipped scale and squared), as extended reals under finite inputs.

  The three frames are the generated frame proofs (the reference's is its generated run with the
  result dropped). The ideal pass rewrote nothing, so the idealization conjunct is trivial. For
  the value conjunct both runs are read back: the reference's result buffer ends at the
  specification G of the arguments (RefG over the generated read-at-an-index lemmas), the
  kernel's at its own result function (KernelRun over Blocks and Pay), and on finite inputs
  (Finite) the kernel's function is G (Bridge over the law of Spec).
-/
import proofs.«109968_j38431367364862_2_alg».proof.Defs
import proofs.«109968_j38431367364862_2_alg».proof.Proof.Gen.Kernel
import proofs.«109968_j38431367364862_2_alg».proof.Proof.Gen.Kernel.Skeleton
import proofs.«109968_j38431367364862_2_alg».proof.Proof.Gen.Kernel.Launch
import proofs.«109968_j38431367364862_2_alg».proof.Proof.Gen.Kernel.Points
import proofs.«109968_j38431367364862_2_alg».proof.Proof.Gen.Kernel.Frame
import proofs.«109968_j38431367364862_2_alg».proof.Proof.Gen.KernelIdeal
import proofs.«109968_j38431367364862_2_alg».proof.Proof.Gen.KernelIdeal.Skeleton
import proofs.«109968_j38431367364862_2_alg».proof.Proof.Gen.KernelIdeal.Launch
import proofs.«109968_j38431367364862_2_alg».proof.Proof.Gen.KernelIdeal.Points
import proofs.«109968_j38431367364862_2_alg».proof.Proof.Gen.KernelIdeal.Frame
import proofs.«109968_j38431367364862_2_alg».proof.Proof.Gen.ReferenceIdeal
import proofs.«109968_j38431367364862_2_alg».proof.Proof.Gen.Pre_finite_inputs
import proofs.«109968_j38431367364862_2_alg».proof.Proof.Gen.ReferenceIdeal.Run
import proofs.«109968_j38431367364862_2_alg».proof.Proof.Gen.ReferenceIdeal.Read
import proofs.«109968_j38431367364862_2_alg».proof.Proof.Bridge
import proofs.«109968_j38431367364862_2_alg».proof.Proof.Finite
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both idealized programs end with the specification of the (agreeing) arguments in their result
    buffers: the reference by its run read index by index, the kernel by its run and, the inputs
    being finite, the law between the two arrangements. -/
theorem algebraic : Cert.algebraic_KernelIdeal_ReferenceIdeal := by
  intro m ρ m' ρ' hpre hagree
  refine ⟨fun c => Cert.Splat.G
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · refine (θ_run Cert.KernelIdeal.defs _ _).mono (fun _ h c => ⟨(h c).1.trans ?_, (h c).2⟩) (Cert.Splat.run m ρ)
    obtain ⟨hx, hp, hs⟩ := Cert.Splat.finite_of_pre _ _ _ _ (hpre c)
    exact Cert.Splat.kerOut_eq_G _ _ _ _ hx hp hs
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v18_eq, Cert.Splat.ref_eq_G, (hagree c).1, (hagree c).2.1, (hagree c).2.2.1,
      (hagree c).2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
